-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S64x2 .f32) (main_arg9 : FVec F S2 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64 .f32) (main_arg6 : FVec F S128x64 .f32) (main_arg7 : FVec F S64 .f32) (main_arg8 : FVec F S64x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S128x64 .f32) (main_arg7 : FVec F S64 .f32) (main_arg8 : FVec F S64x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x128 : Shape := ⟨2, ![2000, 128]⟩
abbrev S2000x64 : Shape := ⟨2, ![2000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x128 : Shape := ⟨2, ![1600000, 128]⟩
abbrev S1x2 : Shape := ⟨2, ![1, 2]⟩
abbrev S1600000x2 : Shape := ⟨2, ![1600000, 2]⟩
abbrev S8000x128 : Shape := ⟨2, ![8000, 128]⟩
abbrev S8000x2 : Shape := ⟨2, ![8000, 2]⟩
abbrev S8000x64 : Shape := ⟨2, ![8000, 64]⟩

abbrev nBuf : Space → Nat
  | .hbm => 108
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x1, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000x64, .f32⟩
  | .hbm, ⟨104, _⟩ => ⟨S1600000x128, .f32⟩
  | .hbm, ⟨105, _⟩ => ⟨S1x64, .f32⟩
  | .hbm, ⟨106, _⟩ => ⟨S1x2, .f32⟩
  | .hbm, ⟨107, _⟩ => ⟨S1600000x2, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x64, .f32⟩
  | .local _ .vmem, ⟨8, _⟩ => ⟨S2000x64, .f32⟩
  | .local _ .vmem, ⟨9, _⟩ => ⟨S2000x64, .f32⟩
  | .local _ .vmem, ⟨10, _⟩ => ⟨S8000x128, .f32⟩
  | .local _ .vmem, ⟨11, _⟩ => ⟨S8000x128, .f32⟩
  | .local _ .vmem, ⟨12, _⟩ => ⟨S128x64, .f32⟩
  | .local _ .vmem, ⟨13, _⟩ => ⟨S1x64, .f32⟩
  | .local _ .vmem, ⟨14, _⟩ => ⟨S64x2, .f32⟩
  | .local _ .vmem, ⟨15, _⟩ => ⟨S1x2, .f32⟩
  | .local _ .vmem, ⟨16, _⟩ => ⟨S8000x2, .f32⟩
  | .local _ .vmem, ⟨17, _⟩ => ⟨S8000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_10 : Ref sig .tc := ⟨.hbm, 86, rfl⟩
abbrev main_v62 : Ref sig .tc := ⟨.hbm, 87, rfl⟩
abbrev main_v63 : Ref sig .tc := ⟨.hbm, 88, rfl⟩
abbrev main_c_11 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_12 : Ref sig .tc := ⟨.hbm, 95, rfl⟩
abbrev main_v69 : Ref sig .tc := ⟨.hbm, 96, rfl⟩
abbrev main_v70 : Ref sig .tc := ⟨.hbm, 97, rfl⟩
abbrev main_c_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  shapeCasts_S64_S1x64 : S64.ShapeCasts S1x64
  shapeCasts_S2_S1x2 : S2.ShapeCasts S1x2
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  dot_S8000x128_S128x64_S8000x64_1_0_0_1_n_n_wf : DotDims.WF S8000x128 S128x64 S8000x64 [1] [0] [0] [1] [] []
  dot_S8000x64_S64x2_S8000x2_1_0_0_1_n_n_wf : DotDims.WF S8000x64 S64x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S1600000x128.size a
  hwx2_0 : ∀ i : grid2.Coords, EltTy.bits .f32 = 32 ∨ (Rect.block (s := S1600000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x2.size a ≤ S1600000x2.size a
  hwx2_5 : ∀ i : grid2.Coords, EltTy.bits .f32 = 32 ∨ (Rect.block (s := S1600000x2) S8000x2.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x2_S8000x2_1_0_0_1_n_n : DotDims S8000x64 S64x2 S8000x2 where
  lhsContracting := [1]
  rhsContracting := [0]
  lhsNonContracting := [0]
  rhsNonContracting := [1]
  lhsBatch := []
  rhsBatch := []
  wf := dot_S8000x64_S64x2_S8000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v79) S8000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x128 : Shape := ⟨2, ![1600000, 128]⟩
abbrev S1600000x2 : Shape := ⟨2, ![1600000, 2]⟩
abbrev S1x2 : Shape := ⟨2, ![1, 2]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x1, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000x64, .f32⟩
  | .hbm, ⟨104, _⟩ => ⟨S1600000x128, .f32⟩
  | .hbm, ⟨105, _⟩ => ⟨S1600000x64, .f32⟩
  | .hbm, ⟨106, _⟩ => ⟨S1x64, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S1600000x64, .f32⟩
  | .hbm, ⟨111, _⟩ => ⟨S1600000x64, .f32⟩
  | .hbm, ⟨112, _⟩ => ⟨S1600000x2, .f32⟩
  | .hbm, ⟨113, _⟩ => ⟨S1x2, .f32⟩
  | .hbm, ⟨114, _⟩ => ⟨S1600000x2, .f32⟩
  | .hbm, ⟨115, _⟩ => ⟨S1600000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_10 : Ref sig .tc := ⟨.hbm, 86, rfl⟩
abbrev main_v62 : Ref sig .tc := ⟨.hbm, 87, rfl⟩
abbrev main_v63 : Ref sig .tc := ⟨.hbm, 88, rfl⟩
abbrev main_c_11 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_12 : Ref sig .tc := ⟨.hbm, 95, rfl⟩
abbrev main_v69 : Ref sig .tc := ⟨.hbm, 96, rfl⟩
abbrev main_v70 : Ref sig .tc := ⟨.hbm, 97, rfl⟩
abbrev main_c_13 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call1_cst : Ref sig .tc := ⟨.hbm, 109, rfl⟩
abbrev main_call1_v0 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x2_S1600000x2_1_0_0_1_n_n_wf : DotDims.WF S1600000x64 S64x2 S1600000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x2_S1600000x2_1_0_0_1_n_n : DotDims S1600000x64 S64x2 S1600000x2 where
  lhsContracting := [1]
  rhsContracting := [0]
  lhsNonContracting := [0]
  rhsNonContracting := [1]
  lhsBatch := []
  rhsBatch := []
  wf := dot_S1600000x64_S64x2_S1600000x2_1_0_0_1_n_n_wf

class Facts : Prop extends Facts₀ where

variable [Facts]
-- ==== Proof.KernelRun.lean ====
/-
  The idealized kernel's run with its result named. From any launch memory every weakly fair execution of @main ends with
  the result array holding what the fold of @main's seven segments leaves there — the host stretches applied in order,
  each region's output array at what its grid points wrote back — and with the ten argument arrays as launched. The fold
  is the boundary valuation `W7`; what it holds at the result is read, segment by segment, in the modules that follow.
-/
import proofs.«132911_j16475494547624_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates without a fault; the result array ends at the last boundary's contents and
    the arguments end as launched: the seven segments launched in order, the last thread state read against the final
    memory at every unscoped buffer, the result among them. -/
theorem run_result : θ_run defs (onTc (τ := τ) (main (F := F))) ⟨m, fun _ => 0, ρ⟩ (fun r => ∀ c : Dev nD,
      r.2.mem ((c.tc : Thread nD τ).loc main_v79) = W7 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v79 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.Val

end
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.LibDot2.lean ====
/-
  The two matrix products read at an index as a sum over the contracted extent, for the plain dimension numbers (left
  operand contracted on its columns, right operand on its rows, no batch axes): the kernel's product into a zero
  accumulator and the host's product are both the sum over `kk` of left (row, kk) times right (kk, column).
-/
import proofs.«132911_j16475494547624_1_alg».proof.Proof.LibDotSum

namespace Cert.Lib.DotSum

open Idealize.ShloMosaic Idealize.ShloMosaic.ValueIdx

variable {M K N : Nat} (d : DotDims ⟨2, ![M, K]⟩ ⟨2, ![K, N]⟩ ⟨2, ![M, N]⟩)

/-- The kernel's matrix product into a zero accumulator. -/
theorem matmul_zero_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ kk : Fin K, l (ix2 p kk) * r (ix2 kk q) :=
  (Ideal.matmul_constant_zero_apply d prec l r (ix2 p q)).trans (dot_sum d hlc hrc hln hrn hlb hrb l r (ix2 p q))

/-- The host's matrix product. -/
theorem dotGeneral_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (sched : HostSchedule) (l : FVec Ideal ⟨2, ![M, K]⟩ φ₁) (r : FVec Ideal ⟨2, ![K, N]⟩ φ₂) (p : Fin M) (q : Fin N) :
    FloatOps.dotGeneral d prec sched l r (ix2 p q) = ∑ kk : Fin K, l (ix2 p kk) * r (ix2 kk q) :=
  (Ideal.dotGeneral_apply d prec sched l r (ix2 p q)).trans (dot_sum d hlc hrc hln hrn hlb hrb l r (ix2 p q))

end Cert.Lib.DotSum
-- ==== Proof.LibDense.lean ====
/-
  The dense half of a graph-convolution layer: every node's feature row against the weight matrix.

  `rowsTimes x w` is the product of an [M, K] matrix with a [K, N] matrix, entry (p, q) the sum over the
  contracted extent of x(p, kk) · w(kk, q). Two readings of it:
  * the host's `dot_general` with the plain dimension numbers (columns of the left operand against rows of the
    right, no batch axes) IS that product (`dotGeneral_eq`);
  * a product of a BLOCK of B rows with the whole weight matrix into a zero accumulator, the operands narrowed to
    bf16 on the way — which changes nothing on the extended reals —, has at (p, q) the same sum over the block's
    row p (`blockTimes_at`).
  No law beyond `0 + s = s` is used: the sums on the two sides have the same terms in the same order.
-/
import proofs.«132911_j16475494547624_1_alg».proof.Proof.LibDot2

noncomputable section

namespace Cert.Dense

open Idealize.ShloMosaic Idealize.ShloMosaic.ValueIdx

variable {M K N : Nat}

/-- The product of `x : [M, K]` with `w : [K, N]`: entry `i` is row `i 0` of `x` against column `i 1` of `w`. -/
def rowsTimes (x : FVec Ideal ⟨2, ![M, K]⟩ .f32) (w : FVec Ideal ⟨2, ![K, N]⟩ .f32) : FVec Ideal ⟨2, ![M, N]⟩ .f32 :=
  fun i => ∑ kk : Fin K, x (ix2 (i 0) kk) * w (ix2 kk (i 1))

/-- The host's product with the plain dimension numbers is `rowsTimes`. -/
theorem dotGeneral_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (x : FVec Ideal ⟨2, ![M, K]⟩ .f32) (w : FVec Ideal ⟨2, ![K, N]⟩ .f32) :
    Host.dotGeneral d prec x w = rowsTimes x w := by
  funext i
  obtain ⟨p, q, rfl⟩ : ∃ (p : Fin M) (q : Fin N), i = ix2 p q := ⟨i 0, i 1, eq_ix2 i⟩
  exact Cert.Lib.DotSum.dotGeneral_at d hlc hrc hln hrn hlb hrb prec .single x w p q

/-- A block of `B` rows against the whole weight matrix, into a zero accumulator, operands narrowed to bf16: at (p, q)
    the sum over the block's row `p` against column `q`. -/
theorem blockTimes_at {B : Nat} (d : DotDims ⟨2, ![B, K]⟩ ⟨2, ![K, N]⟩ ⟨2, ![B, N]⟩)
    (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (xb : FVec Ideal ⟨2, ![B, K]⟩ .f32) (w : FVec Ideal ⟨2, ![K, N]⟩ .f32)
    (h1 : FTy.bits .bf16 < FTy.bits .f32) (p : Fin B) (q : Fin N) :
    FloatOps.matmul d prec (truncf .bf16 xb h1) (truncf .bf16 w h1) (constant ⟨2, ![B, N]⟩ .f32 0x00000000#32) (ix2 p q)
      = ∑ kk : Fin K, xb (ix2 p kk) * w (ix2 kk q) :=
  Cert.Lib.DotSum.matmul_zero_at d hlc hrc hln hrn hlb hrb prec (truncf .bf16 xb h1) (truncf .bf16 w h1) p q

end Cert.Dense

end
-- ==== Proof.Region0.lean ====
/-
  The first dense stage's kernel, as one function of the arrays it finds.

  The kernel walks a grid of 50 points. At point t it is handed rows 2000·t … 2000·t + 1999 of the [100000, 128]
  node features (all 128 columns) and, at every point, the whole [128, 64] weight matrix; it multiplies the block
  of rows by the weights into a zero accumulator (the operands narrowed to bf16 on the way, which changes nothing
  on the extended reals) and writes the [2000, 64] result back as rows 2000·t … of the [100000, 64] output.

  Entry (p, q) of a point's result is the sum over kk of block (p, kk) · weights (kk, q); block row p is row
  2000·t + p of the features, so what point t writes back is exactly rows 2000·t … of the whole product
  `Cert.Dense.rowsTimes`. Row r of the output lies in the block of point r / 2000, so the 50 blocks cover the
  output, and the array after the region is the whole product.
-/
import proofs.«132911_j16475494547624_1_alg».proof.Proof.Gen.KernelIdeal.Frame
import proofs.«132911_j16475494547624_1_alg».proof.Proof.LibDense
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

namespace Region0

/-- The offset of a whole-buffer access is zero on both axes. -/
theorem hz : (![0, 0] : Fin 2 → Nat) = fun _ => 0 := funext fun a => by fin_cases a <;> rfl

/-- The body's arithmetic at (p, q): block row p against weight column q. -/
theorem pay_at (x : Vec Ideal S2000x128 .f32) (w : Vec Ideal S128x64 .f32) (p : Fin 2000) (q : Fin 64) :
    k0_pay1 x w (ix2 p q) = ∑ kk : Fin 128, x (ix2 p kk) * w (ix2 kk q) := by
  unfold k0_pay1
  exact Cert.Dense.blockTimes_at dot_S2000x128_S128x64_S2000x64_1_0_0_1_n_n rfl rfl rfl rfl rfl rfl none x w
    bitsLt_bf16_f32 p q

/-- If block row p is row `i 0` of the features and the block of weights is the weights, the body's result at (p, q)
    is the whole product at `i`, provided `i`'s column is q. -/
theorem point_eq (x0 : Vec Ideal S2000x128 .f32) (x1 : Vec Ideal S128x64 .f32)
    (A0 : FVec Ideal S100000x128 .f32) (A2 : FVec Ideal S128x64 .f32) (p : Fin 2000) (q : Fin 64) (i : S100000x64.Idx)
    (h0 : ∀ kk : Fin 128, x0 (ix2 p kk) = A0 (ix2 (i 0) kk))
    (h1 : ∀ kk : Fin 128, x1 (ix2 kk q) = A2 (ix2 kk (i 1))) :
    k0_pay1 x0 x1 (ix2 p q) = Cert.Dense.rowsTimes A0 A2 i := by
  rw [pay_at]
  show _ = ∑ kk : Fin 128, A0 (ix2 (i 0) kk) * A2 (ix2 kk (i 1))
  exact Finset.sum_congr rfl fun kk _ => by rw [h0 kk, h1 kk]

/-- The printed index maps over the grid: the features' block and the output's block sit at block row t, block
    column 0; the weights' block is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)

/-- What point t writes back is block t of the whole product of the arrays the region finds. -/
theorem flushed_eq (t : Fin cfg0.N) :
    (dat0 (F := Ideal) V c).flushed 2 t
      = ((cfg0.win 2).blk t).view.read (Elt Ideal) (Cert.Dense.rowsTimes (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨e0, e1, e2, e3, e4, e5⟩ := idx_facts t
  refine funext fun (j : S2000x64.Idx) => ?_
  obtain ⟨p, q, rfl⟩ : ∃ (p : Fin 2000) (q : Fin 64), j = ix2 p q := ⟨j 0, j 1, eq_ix2 j⟩
  refine point_eq (iblk0 V c 0 t) (iblk0 V c 1 t) (V c main_arg0) (V c main_arg2) p q
    (((cfg0.win 2).blk t).view.emb (ix2 p q)) ?_ ?_
  · intro kk
    show V c main_arg0 (((cfg0.win 0).blk t).view.emb (ix2 p kk))
      = V c main_arg0 (ix2 ((((cfg0.win 2).blk t).view.emb (ix2 p q)) 0) kk)
    refine congrArg (V c main_arg0) (funext fun a => Fin.ext ?_)
    match a with
    | ⟨0, _⟩ =>
      show win0_0.index t (0 : Fin 2) * 2000 + 1 * p.val = win0_2.index t (0 : Fin 2) * 2000 + 1 * p.val
      omega
    | ⟨1, _⟩ =>
      show win0_0.index t (1 : Fin 2) * 128 + 1 * kk.val = kk.val
      omega
  · intro kk
    show V c main_arg2 (((cfg0.win 1).blk t).view.emb (ix2 kk q))
      = V c main_arg2 (ix2 kk ((((cfg0.win 2).blk t).view.emb (ix2 p q)) 1))
    refine congrArg (V c main_arg2) (funext fun a => Fin.ext ?_)
    match a with
    | ⟨0, _⟩ =>
      show win0_1.index t (0 : Fin 2) * 128 + 1 * kk.val = kk.val
      omega
    | ⟨1, _⟩ =>
      show win0_1.index t (1 : Fin 2) * 64 + 1 * q.val = win0_2.index t (1 : Fin 2) * 64 + 1 * q.val
      omega

end

/-- An index of the output is in point t's block iff each coordinate is in the block's range on its axis. -/
theorem mem_blk (t : Fin cfg0.N) (i : S100000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v27).slice (win0_2.rect t)).set ↔ _
  rw [View.set_slice_whole, Rect.mem_set_unit]
  exact Iff.rfl

/-- Row r of the output is in the block of point r / 2000: the 50 blocks cover the output. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  obtain ⟨t, ht⟩ : ∃ t : Fin cfg0.N, t.val = (i 0).val / 2000 := ⟨⟨(i 0).val / 2000, by omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 64 ≤ (i 1).val ∧ (i 1).val < win0_2.index t (1 : Fin 2) * 64 + 64
    omega

end Region0

section Regions
variable (V : (c : Dev nD) → (b : Ref sig .tc) → Buf (Elt Ideal) ((c : Thread nD τ).loc b)) (c : Dev nD)

/-- After the region, the output array is the whole product of the features and the weights the region found. -/
theorem region0_array : (dat0 (F := Ideal) V c).arrAt 2 cfg0.N = Cert.Dense.rowsTimes (V c main_arg0) (V c main_arg2) :=
  (dat0 (F := Ideal) V c).arrAt_eq_of_cover 2 (Cert.Dense.rowsTimes (V c main_arg0) (V c main_arg2))
    (fun t _ => Region0.flushed_eq V c t) Region0.cover

end Regions

end Cert.KernelIdeal.Val

end
-- ==== Proof.Region1.lean ====
/-
  The second dense stage's kernel, as one function of the arrays it finds.

  The kernel walks a grid of 50 points. At point t it is handed rows 2000·t … 2000·t + 1999 of the [100000, 64]
  hidden features (all 64 columns) and, at every point, the whole [64, 64] weight matrix; it multiplies the block of
  rows by the weights into a zero accumulator (after a reshape of the block to its own shape, which is the identity,
  and with the operands narrowed to bf16 on the way, which changes nothing on the extended reals) and writes the
  [2000, 64] result back as rows 2000·t … of the [100000, 64] output.

  Entry (p, q) of a point's result is the sum over kk of block (p, kk) · weights (kk, q); block row p is row
  2000·t + p of the hidden features, so what point t writes back is exactly rows 2000·t … of the whole product
  `Cert.Dense.rowsTimes`. Row r of the output lies in the block of point r / 2000, so the 50 blocks cover the
  output, and the array after the region is the whole product.
-/
import proofs.«132911_j16475494547624_1_alg».proof.Proof.Gen.KernelIdeal.Frame
import proofs.«132911_j16475494547624_1_alg».proof.Proof.LibDense
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

namespace Region1

/-- The offset of a whole-buffer access is zero on both axes. -/
theorem hz : (![0, 0] : Fin 2 → Nat) = fun _ => 0 := funext fun a => by fin_cases a <;> rfl

/-- The body's arithmetic at (p, q): block row p against weight column q. The reshape of the block to its own shape
    is the identity. -/
theorem pay_at (x : Vec Ideal S2000x64 .f32) (w : Vec Ideal S64x64 .f32) (p : Fin 2000) (q : Fin 64) :
    k1_pay1 x w (ix2 p q) = ∑ kk : Fin 64, x (ix2 p kk) * w (ix2 kk q) := by
  have e : shapeCast S2000x64 x shapeCasts_S2000x64_S2000x64 = x := shapeCast_self x _
  unfold k1_pay1
  rw [e]
  exact Cert.Dense.blockTimes_at dot_S2000x64_S64x64_S2000x64_1_0_0_1_n_n rfl rfl rfl rfl rfl rfl none x w
    bitsLt_bf16_f32 p q

/-- If block row p is row `i 0` of the hidden features and the block of weights is the weights, the body's result at
    (p, q) is the whole product at `i`, provided `i`'s column is q. -/
theorem point_eq (x0 : Vec Ideal S2000x64 .f32) (x1 : Vec Ideal S64x64 .f32)
    (A0 : FVec Ideal S100000x64 .f32) (A1 : FVec Ideal S64x64 .f32) (p : Fin 2000) (q : Fin 64) (i : S100000x64.Idx)
    (h0 : ∀ kk : Fin 64, x0 (ix2 p kk) = A0 (ix2 (i 0) kk))
    (h1 : ∀ kk : Fin 64, x1 (ix2 kk q) = A1 (ix2 kk (i 1))) :
    k1_pay1 x0 x1 (ix2 p q) = Cert.Dense.rowsTimes A0 A1 i := by
  rw [pay_at]
  show _ = ∑ kk : Fin 64, A0 (ix2 (i 0) kk) * A1 (ix2 kk (i 1))
  exact Finset.sum_congr rfl fun kk _ => by rw [h0 kk, h1 kk]

/-- The printed index maps over the grid: the hidden features' block and the output's block sit at block row t,
    block column 0; the weights' block is always block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b)) (c : Dev nD)

/-- What point t writes back is block t of the whole product of the arrays the region finds. -/
theorem flushed_eq (t : Fin cfg1.N) :
    (dat1 (F := Ideal) V c).flushed 2 t
      = ((cfg1.win 2).blk t).view.read (Elt Ideal) (Cert.Dense.rowsTimes (V c main_v44) (V c main_arg4)) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x64) hz]
  obtain ⟨e0, e1, e2, e3, e4, e5⟩ := idx_facts t
  refine funext fun (j : S2000x64.Idx) => ?_
  obtain ⟨p, q, rfl⟩ : ∃ (p : Fin 2000) (q : Fin 64), j = ix2 p q := ⟨j 0, j 1, eq_ix2 j⟩
  refine point_eq (iblk1 V c 0 t) (iblk1 V c 1 t) (V c main_v44) (V c main_arg4) p q
    (((cfg1.win 2).blk t).view.emb (ix2 p q)) ?_ ?_
  · intro kk
    show V c main_v44 (((cfg1.win 0).blk t).view.emb (ix2 p kk))
      = V c main_v44 (ix2 ((((cfg1.win 2).blk t).view.emb (ix2 p q)) 0) kk)
    refine congrArg (V c main_v44) (funext fun a => Fin.ext ?_)
    match a with
    | ⟨0, _⟩ =>
      show win1_0.index t (0 : Fin 2) * 2000 + 1 * p.val = win1_2.index t (0 : Fin 2) * 2000 + 1 * p.val
      omega
    | ⟨1, _⟩ =>
      show win1_0.index t (1 : Fin 2) * 64 + 1 * kk.val = kk.val
      omega
  · intro kk
    show V c main_arg4 (((cfg1.win 1).blk t).view.emb (ix2 kk q))
      = V c main_arg4 (ix2 kk ((((cfg1.win 2).blk t).view.emb (ix2 p q)) 1))
    refine congrArg (V c main_arg4) (funext fun a => Fin.ext ?_)
    match a with
    | ⟨0, _⟩ =>
      show win1_1.index t (0 : Fin 2) * 64 + 1 * kk.val = kk.val
      omega
    | ⟨1, _⟩ =>
      show win1_1.index t (1 : Fin 2) * 64 + 1 * q.val = win1_2.index t (1 : Fin 2) * 64 + 1 * q.val
      omega

end

/-- An index of the output is in point t's block iff each coordinate is in the block's range on its axis. -/
theorem mem_blk (t : Fin cfg1.N) (i : S100000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v45).slice (win1_2.rect t)).set ↔ _
  rw [View.set_slice_whole, Rect.mem_set_unit]
  exact Iff.rfl

/-- Row r of the output is in the block of point r / 2000: the 50 blocks cover the output. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by omega⟩, rfl⟩
  obtain ⟨e0, e1, e2, e3, e4, e5⟩ := idx_facts t
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 64 ≤ (i 1).val ∧ (i 1).val < win1_2.index t (1 : Fin 2) * 64 + 64
    omega

end Region1

section Regions
variable (V : (c : Dev nD) → (b : Ref sig .tc) → Buf (Elt Ideal) ((c : Thread nD τ).loc b)) (c : Dev nD)

/-- After the region, the output array is the whole product of the hidden features and the weights the region found. -/
theorem region1_array : (dat1 (F := Ideal) V c).arrAt 2 cfg1.N = Cert.Dense.rowsTimes (V c main_v44) (V c main_arg4) :=
  (dat1 (F := Ideal) V c).arrAt_eq_of_cover 2 (Cert.Dense.rowsTimes (V c main_v44) (V c main_arg4))
    (fun t _ => Region1.flushed_eq V c t) Region1.cover

end Regions

end Cert.KernelIdeal.Val

end
-- ==== Proof.LibMlp.lean ====
/-
  A two-layer perceptron applied to every row of a matrix, as one whole-array function on the extended reals (generic in
  the extents): row `r` of the input against the first weight matrix, plus a one-row bias, clamped below at zero, against
  the second weight matrix, plus a second one-row bias. Entry (r, q) is
    Σ_k max (Σ_j e(r, j) · w1(j, k) + b1(0, k)) 0 · w2(k, q) + b2(0, q).
  Both sums run over the contracted extent in its natural order, so a blocked evaluation (a block of rows at a time) and
  a whole-array one (two matrix products with the biases laid under every row) have the same terms in the same order.
-/
import proofs.«132911_j16475494547624_1_alg».proof.Proof.LibDense

noncomputable section

namespace Cert.Mlp

open Idealize.ShloMosaic Idealize.ShloMosaic.ValueIdx

variable {E K H C : Nat}

/-- The perceptron of the rows of `e : [E, K]`: weights `w1 : [K, H]`, `w2 : [H, C]`, one-row biases `b1 : [1, H]`,
    `b2 : [1, C]`, the clamp against the zero word. -/
def mlp (e : FVec Ideal ⟨2, ![E, K]⟩ .f32) (w1 : FVec Ideal ⟨2, ![K, H]⟩ .f32) (b1 : FVec Ideal ⟨2, ![1, H]⟩ .f32)
    (w2 : FVec Ideal ⟨2, ![H, C]⟩ .f32) (b2 : FVec Ideal ⟨2, ![1, C]⟩ .f32) : FVec Ideal ⟨2, ![E, C]⟩ .f32 :=
  fun i => (∑ k : Fin H, max ((∑ j : Fin K, e (ix2 (i 0) j) * w1 (ix2 j k)) + b1 (ix2 0 k))
      (FloatOps.ofBits (F := Ideal) .f32 0x00000000#32) * w2 (ix2 k (i 1))) + b2 (ix2 0 (i 1))

end Cert.Mlp

end
-- ==== Proof.LibRows.lean ====
/-
  Rows and scalars laid under a matrix, read at an index (generic in the extents): a one-row array broadcast down the
  rows reads its row; a vector re-laid as a one-row array reads the vector; a vector broadcast first to a row and then
  down the rows reads the vector at the column; a scalar constant broadcast to any shape reads the constant.
-/
import Idealize.ShloMosaic.Lib.ValueIdx
import Idealize.ShloMosaic.Lib.Pipeline.Value
import Idealize.ShloMosaic.PureOps.Ideal.Laws

namespace Cert.Lib.Rows

open Idealize.ShloMosaic Idealize.ShloMosaic.ValueIdx

variable {α : Type}

/-- A one-row array broadcast down `m` rows reads its row. -/
theorem broadcastTo_row_apply {m n : Nat} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 0 q) := by
  refine broadcastTo_apply x h (ix2 p q) (ix2 0 q) fun a => ?_
  match a with
  | ⟨0, _⟩ => exact (if_pos rfl).symm
  | ⟨1, _⟩ =>
    show q.val = if n = 1 then 0 else q.val
    split
    · have := q.isLt; omega
    · rfl

/-- A vector re-laid as a one-row array reads the vector. -/
theorem shapeCast_row_apply {n : Nat} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine shapeCast_apply b h (ix2 0 q) (ix1 q) ?_
  rw [Shape.rowMajor_val_one, Shape.rowMajor_val_two]
  show q.val = 0 * n + q.val
  omega

/-- A vector broadcast to a row, then down the rows, reads the vector at the column. -/
theorem rows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  rw [broadcastInDim_apply ![0, 1] h2 _ (ix2 p q) (ix2 0 q) (fun a => by
    match a with
    | ⟨0, _⟩ => exact (if_pos rfl).symm
    | ⟨1, _⟩ =>
      show q.val = if n = 1 then 0 else q.val
      split
      · have := q.isLt; omega
      · rfl)]
  exact broadcastInDim_apply ![1] h1 b (ix2 0 q) (ix1 q) (fun a => by
    match a with
    | ⟨0, _⟩ =>
      show q.val = if n = 1 then 0 else q.val
      split
      · have := q.isLt; omega
      · rfl)

/-- A scalar broadcast to any shape reads the scalar. -/
theorem scalar_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

end Cert.Lib.Rows
-- ==== Proof.LibDenseBlock.lean ====
/-
  A dense layer on a block of rows, read at an index at the ideal instance (generic in the extents): the matrix product
  into a zero accumulator plus a one-row bias laid under every row, at (p, q), is the inner product of row p of the input
  with column q of the weights plus the bias at q (for the plain dimension numbers: left operand contracted on its columns,
  right operand on its rows, no batch axes; any operand formats); and a clamp from below against a broadcast scalar
  constant, at an index, is the maximum with that constant.
-/
import proofs.«132911_j16475494547624_1_alg».proof.Proof.LibDot2
import proofs.«132911_j16475494547624_1_alg».proof.Proof.LibRows

namespace Cert.Lib.DenseBlock

open Idealize.ShloMosaic Idealize.ShloMosaic.ValueIdx

/-- The product into a zero accumulator plus a one-row bias broadcast down the `B` rows, at (p, q). -/
theorem matmul_bias_at {B K N : ℕ} (d : DotDims ⟨2, ![B, K]⟩ ⟨2, ![K, N]⟩ ⟨2, ![B, N]⟩)
    (hlc : d.lhsContracting = [1]) (hrc : d.rhsContracting = [0]) (hln : d.lhsNonContracting = [0])
    (hrn : d.rhsNonContracting = [1]) (hlb : d.lhsBatch = []) (hrb : d.rhsBatch = [])
    {φa φw : FTy} (a : FVec Ideal ⟨2, ![B, K]⟩ φa) (w : FVec Ideal ⟨2, ![K, N]⟩ φw) (b : FVec Ideal ⟨2, ![1, N]⟩ .f32)
    (hb : (⟨2, ![1, N]⟩ : Shape).Broadcasts ⟨2, ![B, N]⟩) (p : Fin B) (q : Fin N) :
    addf (matmul (φ₁ := φa) (φ₂ := φw) d none a w (constant ⟨2, ![B, N]⟩ .f32 0x00000000#32)) (broadcastTo ⟨2, ![B, N]⟩ b hb) (ix2 p q)
      = (∑ k : Fin K, a (ix2 p k) * w (ix2 k q)) + b (ix2 0 q) := by
  show FloatOps.matmul (φ₁ := φa) (φ₂ := φw) d none a w (constant ⟨2, ![B, N]⟩ .f32 0x00000000#32) (ix2 p q) + broadcastTo ⟨2, ![B, N]⟩ b hb (ix2 p q) = _
  rw [Cert.Lib.DotSum.matmul_zero_at d hlc hrc hln hrn hlb hrb none a w p q, Cert.Lib.Rows.broadcastTo_row_apply b hb p q]

/-- The maximum with a scalar constant broadcast to any shape, at an index. -/
theorem max_scalar_at {S : Shape} (v : FVec Ideal S .f32) (z : BitVec 32) (i : S.Idx) :
    maximumf v (broadcast S (Scalar.ofBits (F := Ideal) .f32 z)) i = max (v i) (FloatOps.ofBits (F := Ideal) .f32 z) := rfl

end Cert.Lib.DenseBlock
-- ==== Proof.Region2.lean ====
/-
  The fused two-layer edge classifier, from blocks to the whole array. Each of the 200 grid points reads 8000 consecutive
  rows of the edge-feature matrix [1600000, 128] together with the whole of both weight matrices and both one-row biases,
  and writes back the matching 8000 rows of the [1600000, 2] result. A point's block at (p, q) is the perceptron of row p
  of its input block: the first product into a zero accumulator plus the first bias, clamped below at zero, against the
  second weight matrix plus the second bias; the narrowing of operands to bf16 changes nothing on the extended reals.
  Row p of block t is row 8000·t + p of the array, the blocks tile the rows (row r lies in block r / 8000), so the array
  ends holding the perceptron of every row.
-/
import proofs.«132911_j16475494547624_1_alg».proof.Proof.Gen.KernelIdeal.Frame
import proofs.«132911_j16475494547624_1_alg».proof.Proof.LibMlp
import proofs.«132911_j16475494547624_1_alg».proof.Proof.LibDenseBlock
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-- The block's arithmetic at (p, q): the perceptron of row p of the input block. -/
theorem mlp_block_at (x0 : Vec Ideal S8000x128 .f32) (x1 : Vec Ideal S128x64 .f32) (x2 : Vec Ideal S1x64 .f32)
    (x3 : Vec Ideal S64x2 .f32) (x4 : Vec Ideal S1x2 .f32) (p : Fin 8000) (q : Fin 2) :
    k2_pay1 (F := Ideal) x0 x1 x2 x3 x4 (ix2 p q)
      = (∑ k : Fin 64, max ((∑ j : Fin 128, x0 (ix2 p j) * x1 (ix2 j k)) + x2 (ix2 0 k))
          (FloatOps.ofBits (F := Ideal) .f32 0x00000000#32) * x3 (ix2 k q)) + x4 (ix2 0 q) := by
  unfold k2_pay1
  rw [shapeCast_self, shapeCast_self, shapeCast_self]
  refine (Cert.Lib.DenseBlock.matmul_bias_at dot_S8000x64_S64x2_S8000x2_1_0_0_1_n_n rfl rfl rfl rfl rfl rfl _ _ x4
    broadcasts_S1x2_S8000x2 p q).trans ?_
  refine congrArg (· + x4 (ix2 0 q)) (Finset.sum_congr rfl fun k _ => ?_)
  refine congrArg (· * x3 (ix2 k q)) ?_
  refine (Cert.Lib.DenseBlock.max_scalar_at _ 0x00000000#32 (ix2 p k)).trans ?_
  refine congrArg (max · (FloatOps.ofBits (F := Ideal) .f32 0x00000000#32)) ?_
  exact Cert.Lib.DenseBlock.matmul_bias_at dot_S8000x128_S128x64_S8000x64_1_0_0_1_n_n rfl rfl rfl rfl rfl rfl _ _ x2
    broadcasts_S1x64_S8000x64 p k

/-- The perceptron of a block whose rows are rows 8000·tt … of a matrix `e`, at a block index: the perceptron of
    `e` at the matching row of the array. -/
theorem block_rows_at (x0 : Vec Ideal S8000x128 .f32) (x1 : Vec Ideal S128x64 .f32) (x2 : Vec Ideal S1x64 .f32)
    (x3 : Vec Ideal S64x2 .f32) (x4 : Vec Ideal S1x2 .f32) (e : FVec Ideal S1600000x128 .f32) (tt : Nat) (htt : tt < 200)
    (h0 : ∀ (p : Fin 8000) (j : Fin 128), x0 (ix2 p j) = e (ix2 ⟨8000 * tt + p.val, by have := p.isLt; omega⟩ j))
    (y : S8000x2.Idx) :
    k2_pay1 (F := Ideal) x0 x1 x2 x3 x4 y
      = Cert.Mlp.mlp e x1 x2 x3 x4 (ix2 ⟨8000 * tt + (y 0).val, by have := idx2_lt0 y; omega⟩ ⟨(y 1).val, idx2_lt1 y⟩) := by
  obtain ⟨p, q, rfl⟩ : ∃ (p : Fin 8000) (q : Fin 2), y = ix2 p q := ⟨y 0, y 1, eq_ix2 y⟩
  refine (mlp_block_at x0 x1 x2 x3 x4 p q).trans ?_
  show _ = (∑ k : Fin 64, max ((∑ j : Fin 128, e (ix2 ⟨8000 * tt + p.val, by have := p.isLt; omega⟩ j) * x1 (ix2 j k)) + x2 (ix2 0 k))
          (FloatOps.ofBits (F := Ideal) .f32 0x00000000#32) * x3 (ix2 k q)) + x4 (ix2 0 q)
  exact congrArg (· + x4 (ix2 0 q)) (Finset.sum_congr rfl fun k _ => congrArg (· * x3 (ix2 k q))
    (congrArg (max · (FloatOps.ofBits (F := Ideal) .f32 0x00000000#32)) (congrArg (· + x2 (ix2 0 k))
      (Finset.sum_congr rfl fun j _ => congrArg (· * x1 (ix2 j k)) (h0 p j)))))

theorem zero_offsets : (![0, 0] : Fin 2 → Nat) = fun _ => 0 := funext fun a => by fin_cases a <;> rfl

/-- The index maps over the grid: the row windows (input 0 and the output) sit at block (t, 0), the weights and biases at
    block (0, 0) at every point. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Region
variable (V : (c : Dev nD) → (b : Ref sig .tc) → Buf (Elt Ideal) ((c : Thread nD τ).loc b)) (c : Dev nD)

/-- Input window 0 at point t is rows 8000·t … 8000·t + 7999 of the edge-feature matrix. -/
theorem rows_block (t : Fin cfg2.N) (p : Fin 8000) (j : Fin 128) (hr : 8000 * t.val + p.val < 1600000) :
    (iblk2 V c 0 t : Vec Ideal S8000x128 .f32) (ix2 p j)
      = (V c main_v76 : S1600000x128.Idx → Elt Ideal .f32) (ix2 ⟨8000 * t.val + p.val, hr⟩ j) := by
  obtain ⟨e0, e1, -⟩ := block_indices t
  show V c main_v76 (((cfg2.win 0).blk t).view.emb (ix2 p j)) = _
  refine congrArg _ (funext fun a => Fin.ext ?_)
  match a with
  | ⟨0, _⟩ => show win2_0.index t (0 : Fin 2) * 8000 + 1 * p.val = 8000 * t.val + p.val; omega
  | ⟨1, _⟩ => show win2_0.index t (1 : Fin 2) * 128 + 1 * j.val = j.val; omega

/-- Windows 1 to 4 are the whole of their arrays at every point. -/
theorem whole_block1 (t : Fin cfg2.N) : (iblk2 V c 1 t : Vec Ideal S128x64 .f32) = V c main_arg6 := by
  obtain ⟨-, -, e0, e1, -⟩ := block_indices t
  funext y
  show V c main_arg6 (((cfg2.win 1).blk t).view.emb y) = V c main_arg6 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 64 + 1 * (y 1).val = (y 1).val; omega
theorem whole_block2 (t : Fin cfg2.N) : (iblk2 V c 2 t : Vec Ideal S1x64 .f32) = V c main_v77 := by
  obtain ⟨-, -, -, -, e0, e1, -⟩ := block_indices t
  funext y
  show V c main_v77 (((cfg2.win 2).blk t).view.emb y) = V c main_v77 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega
theorem whole_block3 (t : Fin cfg2.N) : (iblk2 V c 3 t : Vec Ideal S64x2 .f32) = V c main_arg8 := by
  obtain ⟨-, -, -, -, -, -, e0, e1, -⟩ := block_indices t
  funext y
  show V c main_arg8 (((cfg2.win 3).blk t).view.emb y) = V c main_arg8 y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 2 + 1 * (y 1).val = (y 1).val; omega
theorem whole_block4 (t : Fin cfg2.N) : (iblk2 V c 4 t : Vec Ideal S1x2 .f32) = V c main_v78 := by
  obtain ⟨-, -, -, -, -, -, -, -, e0, e1, -⟩ := block_indices t
  funext y
  show V c main_v78 (((cfg2.win 4).blk t).view.emb y) = V c main_v78 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 2 + 1 * (y 1).val = (y 1).val; omega

/-- What point t writes back is block t of the perceptron of the arrays the region finds. -/
theorem written_back (t : Fin cfg2.N) :
    (dat2 (F := Ideal) V c).flushed 5 t = ((cfg2.win 5).blk t).view.read (Elt Ideal)
      (Cert.Mlp.mlp (V c main_v76) (V c main_arg6) (V c main_v77) (V c main_arg8) (V c main_v78)) := by
  show (cfg2.win 5).cut (grid2.coords t) ((dat2 (F := Ideal) V c).after 5 t) = _
  rw [after2_5]
  unfold out2_5
  rw [View.canon_unit_zero zero_offsets]
  simp only [View.ld_unit_zero (S := S8000x128) zero_offsets, View.ld_unit_zero (S := S128x64) zero_offsets,
    View.ld_unit_zero (S := S1x64) zero_offsets, View.ld_unit_zero (S := S64x2) zero_offsets,
    View.ld_unit_zero (S := S1x2) zero_offsets]
  rw [whole_block1 V c t, whole_block2 V c t, whole_block3 V c t, whole_block4 V c t]
  have ht : t.val < 200 := lt_of_lt_of_eq t.isLt N_2
  obtain ⟨-, -, -, -, -, -, -, -, -, -, e0, e1⟩ := block_indices t
  funext y
  refine (block_rows_at (iblk2 V c 0 t) (V c main_arg6) (V c main_v77) (V c main_arg8) (V c main_v78) (V c main_v76) t.val ht
    (fun p j => rows_block V c t p j _) ((cfg2.win 5).xinj (grid2.coords t) y)).trans ?_
  show Cert.Mlp.mlp (V c main_v76) (V c main_arg6) (V c main_v77) (V c main_arg8) (V c main_v78) _
    = Cert.Mlp.mlp (V c main_v76) (V c main_arg6) (V c main_v77) (V c main_arg8) (V c main_v78) (((cfg2.win 5).blk t).view.emb y)
  refine congrArg _ (funext fun a => Fin.ext ?_)
  match a with
  | ⟨0, _⟩ => show 8000 * t.val + (y 0).val = win2_5.index t (0 : Fin 2) * 8000 + 1 * (y 0).val; omega
  | ⟨1, _⟩ => show (y 1).val = win2_5.index t (1 : Fin 2) * 2 + 1 * (y 1).val; omega

/-- An index of the result is in point t's block iff each coordinate is in the block's range on its axis. -/
theorem mem_block (t : Fin cfg2.N) (i : S1600000x2.Idx) :
    i ∈ ((cfg2.win 5).blk t).view.set ↔ ∀ a : Fin 2, win2_5.index t a * S8000x2.size a ≤ (i a).val
      ∧ (i a).val < win2_5.index t a * S8000x2.size a + S8000x2.size a := by
  show i ∈ ((View.whole main_v79).slice (win2_5.rect t)).set ↔ _
  rw [View.set_slice_whole, Rect.mem_set_unit]
  exact Iff.rfl

/-- The blocks tile the rows: row r lies in the block of point r / 8000. -/
theorem rows_covered (i : S1600000x2.Idx) :
    ∃ t : Fin cfg2.N, (cfg2.win 5).flush t = true ∧ i ∈ ((cfg2.win 5).blk t).view.set := by
  have hi0 : (i 0).val < 1600000 := (i 0).isLt
  have hi1 : (i 1).val < 2 := (i 1).isLt
  have hN : cfg2.N = 200 := N_2
  obtain ⟨t, ht⟩ : ∃ t : Fin cfg2.N, t.val = (i 0).val / 8000 := ⟨⟨(i 0).val / 8000, by rw [hN]; omega⟩, rfl⟩
  obtain ⟨-, -, -, -, -, -, -, -, -, -, e0, e1⟩ := block_indices t
  refine ⟨t, flush2_5 t, ?_⟩
  rw [mem_block]
  intro a
  match a with
  | ⟨0, _⟩ =>
    show win2_5.index t (0 : Fin 2) * 8000 ≤ (i 0).val ∧ (i 0).val < win2_5.index t (0 : Fin 2) * 8000 + 8000
    omega
  | ⟨1, _⟩ =>
    show win2_5.index t (1 : Fin 2) * 2 ≤ (i 1).val ∧ (i 1).val < win2_5.index t (1 : Fin 2) * 2 + 2
    omega

/-- The result array after the region: the perceptron of every row of the edge-feature matrix. -/
theorem region2_array : (dat2 (F := Ideal) V c).arrAt 5 cfg2.N
    = Cert.Mlp.mlp (V c main_v76) (V c main_arg6) (V c main_v77) (V c main_arg8) (V c main_v78) :=
  (dat2 (F := Ideal) V c).arrAt_eq_of_cover 5
    (Cert.Mlp.mlp (V c main_v76) (V c main_arg6) (V c main_v77) (V c main_arg8) (V c main_v78))
    (fun t _ => written_back V c t) (rows_covered)

end Region

end Cert.KernelIdeal.Val

end
-- ==== Proof.DenseRef.lean ====
/-
  The reference's two dense stages are the plain matrix product.

  Each of the two stages of the reference that multiplies every node's feature row by a weight matrix is one host
  `dot_general` with the plain dimension numbers (the left operand's columns contracted against the right operand's
  rows, no batch axes). Such a product is `Cert.Dense.rowsTimes`: entry (p, q) is the sum over the contracted extent of
  left (p, kk) · right (kk, q). The first stage multiplies the [100000, 128] node features by the [128, 64] weights, the
  second the [100000, 64] hidden features by the [64, 64] weights.
-/
import proofs.«132911_j16475494547624_1_alg».proof.KernelIdeal
import proofs.«132911_j16475494547624_1_alg».proof.Proof.Gen.ReferenceIdeal.Read
import proofs.«132911_j16475494547624_1_alg».proof.Proof.LibDense

set_option maxRecDepth 16384

noncomputable section

namespace Cert.KernelIdeal.Val

open Cert.KernelIdeal Idealize.ShloMosaic
open Cert.ReferenceIdeal.Read

variable (a0 : FVec Ideal S100000x128 .f32) (a1 : (⟨S2x1600000, .i32⟩ : BufTy).Contents (Elt Ideal)) (a2 : FVec Ideal S128x64 .f32)
  (a3 : FVec Ideal S64 .f32) (a4 : FVec Ideal S64x64 .f32)

/-- The first dense stage: node features against the first weight matrix. -/
theorem dense0_ref : Cert.Dense.rowsTimes a0 a2 = val_main_v27 (F := Ideal) a0 a2 := by
  unfold val_main_v27
  exact (Cert.Dense.dotGeneral_eq Cert.ReferenceIdeal.dot_S100000x128_S128x64_S100000x64_1_0_0_1_n_n
    rfl rfl rfl rfl rfl rfl none a0 a2).symm

/-- The second dense stage: hidden features against the second weight matrix. The hidden features are kept as one
    variable: nothing about them is used. -/
theorem dense1_ref : Cert.Dense.rowsTimes (val_main_v44 (F := Ideal) a0 a1 a2 a3) a4 = val_main_v45 (F := Ideal) a0 a1 a2 a3 a4 := by
  unfold val_main_v45
  generalize val_main_v44 (F := Ideal) a0 a1 a2 a3 = y
  exact (Cert.Dense.dotGeneral_eq Cert.ReferenceIdeal.dot_S100000x64_S64x64_S100000x64_1_0_0_1_n_n
    rfl rfl rfl rfl rfl rfl none y a4).symm

end Cert.KernelIdeal.Val

end
-- ==== Proof.MlpRef.lean ====
/-
  The last two layers of the edge classifier against the reference's last stages. The reference computes, for the whole
  [1600000, 128] edge-feature matrix at once, the product with the first weight matrix, adds the first bias laid under every
  row, clamps below at zero, takes the product with the second weight matrix and adds the second bias laid under every row.
  Read at an entry (r, q) that is the sum over k of max (Σ_j e(r, j)·w1(j, k) + b1(k)) 0 · w2(k, q), plus b2(q): the two
  products are sums over the contracted extent in its natural order, a bias vector broadcast first to one row and then
  down the rows reads the vector at the column, and re-laying the vector as a one-row array reads the same entry. No law of
  arithmetic is used: both sides have the same terms in the same order.
-/
import proofs.«132911_j16475494547624_1_alg».proof.Proof.Gen.ReferenceIdeal.Read
import proofs.«132911_j16475494547624_1_alg».proof.Proof.Gen.KernelIdeal
import proofs.«132911_j16475494547624_1_alg».proof.Proof.LibMlp
import proofs.«132911_j16475494547624_1_alg».proof.Proof.LibDenseBlock

set_option maxRecDepth 16384

noncomputable section

namespace Cert.Mlp.Ref

open Cert.ReferenceIdeal Cert.ReferenceIdeal.Read Idealize.ShloMosaic Idealize.ShloMosaic.ValueIdx

/-- Over any edge-feature matrix `e`: the perceptron with the biases re-laid as one-row arrays is the reference's chain
    of two products, two broadcast biases and the clamp. -/
theorem layers_eq (e : FVec Ideal S1600000x128 .f32) (a6 : FVec Ideal S128x64 .f32) (a7 : FVec Ideal S64 .f32)
    (a8 : FVec Ideal S64x2 .f32) (a9 : FVec Ideal S2 .f32) (h7 : S64.ShapeCasts S1x64) (h9 : S2.ShapeCasts S1x2) :
    Cert.Mlp.mlp e a6 (shapeCast S1x64 a7 h7) a8 (shapeCast S1x2 a9 h9)
      = addf (Host.dotGeneral dot_S1600000x64_S64x2_S1600000x2_1_0_0_1_n_n none
          (maximumf (addf (Host.dotGeneral dot_S1600000x128_S128x64_S1600000x64_1_0_0_1_n_n none e a6) (val_main_v79 (F := Ideal) a7))
            (val_main_call1_v0 (F := Ideal))) a8) (val_main_v84 (F := Ideal) a9) := by
  funext i
  obtain ⟨r, q, rfl⟩ : ∃ (r : Fin 1600000) (q : Fin 2), i = ix2 r q := ⟨i 0, i 1, eq_ix2 i⟩
  refine Eq.trans ?_ (addf_apply _ _ _).symm
  refine congrArg₂ (· + ·) ?_ ?_
  · refine Eq.trans ?_ (Cert.Lib.DotSum.dotGeneral_at dot_S1600000x64_S64x2_S1600000x2_1_0_0_1_n_n rfl rfl rfl rfl rfl rfl none
      .single _ a8 r q).symm
    refine Finset.sum_congr rfl fun k _ => congrArg (· * a8 (ix2 k q)) ?_
    refine Eq.trans ?_ (maximumf_apply _ _ _).symm
    refine congrArg₂ max ?_ ?_
    · refine Eq.trans ?_ (addf_apply _ _ _).symm
      refine congrArg₂ (· + ·) ?_ ?_
      · exact (Cert.Lib.DotSum.dotGeneral_at dot_S1600000x128_S128x64_S1600000x64_1_0_0_1_n_n rfl rfl rfl rfl rfl rfl none
          .single e a6 r k).symm
      · refine (Cert.Lib.Rows.shapeCast_row_apply a7 h7 k).trans ?_
        unfold val_main_v79 val_main_v78
        exact (Cert.Lib.Rows.rows_apply a7 _ _ r k).symm
    · unfold val_main_call1_v0
      exact (Cert.Lib.Rows.scalar_apply (val_main_call1_cst (F := Ideal)) _ (ix2 r k)).symm
  · refine (Cert.Lib.Rows.shapeCast_row_apply a9 h9 q).trans ?_
    unfold val_main_v84 val_main_v83
    exact (Cert.Lib.Rows.rows_apply a9 _ _ r q).symm

end Cert.Mlp.Ref

namespace Cert.KernelIdeal.Val

open Cert.KernelIdeal Cert.KernelIdeal.Gen Idealize.ShloMosaic Idealize.ShloMosaic.TcCoe Idealize.SL.Sem
open Cert.ReferenceIdeal.Read

variable (a0 : FVec Ideal S100000x128 .f32) (a1 : (⟨S2x1600000, .i32⟩ : BufTy).Contents (Elt Ideal)) (a2 : FVec Ideal S128x64 .f32)
  (a3 : FVec Ideal S64 .f32) (a4 : FVec Ideal S64x64 .f32) (a5 : FVec Ideal S64 .f32) (a6 : FVec Ideal S128x64 .f32)
  (a7 : FVec Ideal S64 .f32) (a8 : FVec Ideal S64x2 .f32) (a9 : FVec Ideal S2 .f32)

/-- the last two layers against the reference's last stages -/
theorem mlp_ref : Cert.Mlp.mlp (val_main_v76 a0 a1 a2 a3 a4 a5) a6 (shapeCast S1x64 a7 shapeCasts_S64_S1x64) a8 (shapeCast S1x2 a9 shapeCasts_S2_S1x2)
    = val_main_v85 a0 a1 a2 a3 a4 a5 a6 a7 a8 a9 := by
  unfold val_main_v85 val_main_v82 val_main_v81 val_main_v80 val_main_v77
  generalize val_main_v76 a0 a1 a2 a3 a4 a5 = e
  exact Cert.Mlp.Ref.layers_eq e a6 a7 a8 a9 shapeCasts_S64_S1x64 shapeCasts_S2_S1x2

end Cert.KernelIdeal.Val

end
-- ==== Proof.Keep.lean ====
import proofs.«132911_j16475494547624_1_alg».proof.Proof.Gen.KernelIdeal.Launch
import Idealize.ShloMosaic.Lib.StableHlo.Run
import Idealize.ShloMosaic.PureOps.Ideal

set_option maxRecDepth 16384

noncomputable section

namespace Cert.KernelIdeal.Val

open Cert.KernelIdeal Cert.KernelIdeal.Gen Idealize.ShloMosaic Idealize.ShloMosaic.TcCoe Idealize.SL.Sem

/-! A buffer that no operation of a stretch of host operations writes holds, after the stretch,
    what it held before it: the stretch's fold changes only the result buffers of its operations,
    and which reference is which is decided reference by reference. -/

variable (W : Valuation τ sig (Elt Ideal))

theorem keep0 (b : Ref sig .tc) (hb : b ∈ [main_arg0, main_arg2, main_arg3, main_arg4, main_arg5, main_arg6, main_arg7, main_arg8, main_arg9]) :
    StableHlo.after (hostOps0 (F := Ideal)) W (Proc.devRef .tc b) = W (Proc.devRef .tc b) := by
  refine StableHlo.after_of_forall_not_mem (b := Proc.devRef .tc b) _ _ (List.forall_iff_forall_mem.mp ?_)
  simp only [List.mem_cons, List.mem_singleton, List.not_mem_nil, or_false] at hb
  rcases hb with rfl | rfl | rfl | rfl | rfl | rfl | rfl | rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem keep1 (b : Ref sig .tc) (hb : b ∈ [main_v1, main_v3, main_v5, main_v6, main_v26, main_arg4, main_arg5, main_arg6, main_arg7, main_arg8, main_arg9]) :
    StableHlo.after (hostOps1 (F := Ideal)) W (Proc.devRef .tc b) = W (Proc.devRef .tc b) := by
  refine StableHlo.after_of_forall_not_mem (b := Proc.devRef .tc b) _ _ (List.forall_iff_forall_mem.mp ?_)
  simp only [List.mem_cons, List.mem_singleton, List.not_mem_nil, or_false] at hb
  rcases hb with rfl | rfl | rfl | rfl | rfl | rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem keep1_1 (b : Ref sig .tc) (hb : b ∈ [main_v1, main_v3, main_v5, main_v6, main_v26, main_arg4, main_arg5, main_arg6, main_arg7, main_arg8, main_arg9]) :
    StableHlo.after (hostOps1_1 (F := Ideal)) W (Proc.devRef .tc b) = W (Proc.devRef .tc b) := by
  refine StableHlo.after_of_forall_not_mem (b := Proc.devRef .tc b) _ _ (List.forall_iff_forall_mem.mp ?_)
  simp only [List.mem_cons, List.mem_singleton, List.not_mem_nil, or_false] at hb
  rcases hb with rfl | rfl | rfl | rfl | rfl | rfl | rfl | rfl | rfl | rfl | rfl
  all_goals
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem keep2 (b : Ref sig .tc) (hb : b ∈ [main_arg6, main_arg8]) :
    StableHlo.after (hostOps2 (F := Ideal)) W (Proc.devRef .tc b) = W (Proc.devRef .tc b) := by
  refine StableHlo.after_of_forall_not_mem (b := Proc.devRef .tc b) _ _ (List.forall_iff_forall_mem.mp ?_)
  simp only [List.mem_cons, List.mem_singleton, List.not_mem_nil, or_false] at hb
  rcases hb with rfl | rfl
  all_goals
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

end Cert.KernelIdeal.Val

end
-- ==== Proof.Stretch0.lean ====
import proofs.«132911_j16475494547624_1_alg».proof.Proof.Gen.KernelIdeal.Launch
import proofs.«132911_j16475494547624_1_alg».proof.Proof.Gen.ReferenceIdeal.Read
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem

open Cert.ReferenceIdeal.Read
variable (W : Valuation τ sig (Elt Ideal))
variable (a0 : FVec Ideal S100000x128 .f32) (a1 : (⟨S2x1600000, .i32⟩ : BufTy).Contents (Elt Ideal)) (a2 : FVec Ideal S128x64 .f32)
  (a3 : FVec Ideal S64 .f32) (a4 : FVec Ideal S64x64 .f32) (a5 : FVec Ideal S64 .f32) (a6 : FVec Ideal S128x64 .f32)
  (a7 : FVec Ideal S64 .f32) (a8 : FVec Ideal S64x2 .f32) (a9 : FVec Ideal S2 .f32)

/-! The first stretch of host operations (edge endpoints with the self loops appended, the degree
    scatter, its inverse square root gathered at both endpoints and multiplied) computes, buffer by
    buffer, the reference's stages of the same numbers: the stretch's fold at a result buffer is the
    composition of the operations' functions over the edge list it reads, and that composition is the
    reference's stage unfolded. -/

/-- The rewriting loop that reads a fold of operations' results at a result buffer, operation by
    operation: used after the one-pass simplification, which does not reach the operands listed
    inside a concatenation. -/
local macro "results_rest" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

theorem stretch0_v1 (h1 : W (Proc.devRef .tc main_arg1) = a1) : StableHlo.after hostOps0 W (Proc.devRef .tc main_v1) = val_main_v1 a1 := by
  after_results
  rw [h1]
  unfold val_main_v1 val_main_v0
  rfl

theorem stretch0_v3 (h1 : W (Proc.devRef .tc main_arg1) = a1) : StableHlo.after hostOps0 W (Proc.devRef .tc main_v3) = val_main_v3 a1 := by
  after_results
  rw [h1]
  unfold val_main_v3 val_main_v2
  rfl

theorem stretch0_v5 (h1 : W (Proc.devRef .tc main_arg1) = a1) : StableHlo.after hostOps0 W (Proc.devRef .tc main_v5) = val_main_v5 a1 := by
  after_results
  rw [h1]
  unfold val_main_v5 val_main_v4 val_main_v1 val_main_v0
  rfl

theorem stretch0_v6 (h1 : W (Proc.devRef .tc main_arg1) = a1) : StableHlo.after hostOps0 W (Proc.devRef .tc main_v6) = val_main_v6 a1 := by
  after_results
  rw [h1]
  unfold val_main_v6 val_main_v4 val_main_v3 val_main_v2
  rfl

theorem stretch0_v26 (h1 : W (Proc.devRef .tc main_arg1) = a1) : StableHlo.after hostOps0 W (Proc.devRef .tc main_v26) = val_main_v26 a1 := by
  after_results_simp
  results_rest
  rw [h1]
  unfold val_main_v26 val_main_v25 val_main_v24 val_main_v23 val_main_v22 val_main_v21 val_main_c_3 val_main_v20 val_main_v19 val_main_c_2
    val_main_v18 val_main_v17 val_main_v16 val_main_v15 val_main_v14 val_main_c_1 val_main_v13 val_main_v12 val_main_c
    val_main_v11 val_main_v10 val_main_v9 val_main_v8 val_main_cst_0 val_main_v7 val_main_cst
    val_main_v6 val_main_v5 val_main_v4 val_main_v3 val_main_v2 val_main_v1 val_main_v0
  rfl

end Cert.KernelIdeal.Val

end
-- ==== Proof.Stretch1.lean ====
import proofs.«132911_j16475494547624_1_alg».proof.Proof.Gen.KernelIdeal.Launch
import proofs.«132911_j16475494547624_1_alg».proof.Proof.Gen.ReferenceIdeal.Read
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem

open Cert.ReferenceIdeal.Read
variable (W : Valuation τ sig (Elt Ideal))
variable (a0 : FVec Ideal S100000x128 .f32) (a1 : (⟨S2x1600000, .i32⟩ : BufTy).Contents (Elt Ideal)) (a2 : FVec Ideal S128x64 .f32)
  (a3 : FVec Ideal S64 .f32) (a4 : FVec Ideal S64x64 .f32) (a5 : FVec Ideal S64 .f32) (a6 : FVec Ideal S128x64 .f32)
  (a7 : FVec Ideal S64 .f32) (a8 : FVec Ideal S64x2 .f32) (a9 : FVec Ideal S2 .f32)

/-! The second stretch of host operations (the first layer's rows gathered at the edges' sources,
    scaled by the edge weights, scatter-added at the targets, plus the bias) and the rectifier that
    follows it compute the reference's stages of the same numbers, given that the buffers the stretch
    reads hold the reference's earlier stages. Both sides are read as the same composition of
    operations over the contents of the buffers the stretch reads, which stay opaque. -/

theorem stretch1_v43 (h27 : W (Proc.devRef .tc main_v27) = val_main_v27 a0 a2) (h5 : W (Proc.devRef .tc main_v5) = val_main_v5 a1)
    (h6 : W (Proc.devRef .tc main_v6) = val_main_v6 a1) (h26 : W (Proc.devRef .tc main_v26) = val_main_v26 a1)
    (h3 : W (Proc.devRef .tc main_arg3) = a3) :
    StableHlo.after hostOps1 W (Proc.devRef .tc main_v43) = val_main_v43 a0 a1 a2 a3 := by
  after_results_simp
  unfold val_main_v43 val_main_v42 val_main_v41 val_main_v40 val_main_v39 val_main_v38 val_main_cst_6 val_main_v37
    val_main_v36 val_main_v35 val_main_v34 val_main_v33 val_main_v32 val_main_v31 val_main_v30 val_main_c_5
    val_main_v29 val_main_v28 val_main_c_4
  rw [← h27, ← h5, ← h6, ← h26, ← h3]
  rfl

theorem stretch1_1_v44 (h43 : W (Proc.devRef .tc main_v43) = val_main_v43 a0 a1 a2 a3) :
    StableHlo.after hostOps1_1 W (Proc.devRef .tc main_v44) = val_main_v44 a0 a1 a2 a3 := by
  after_results_simp
  unfold val_main_v44 val_main_call0_v0 val_main_call0_cst
  rw [← h43]
  rfl

end Cert.KernelIdeal.Val

end
-- ==== Proof.Stretch2.lean ====
import proofs.«132911_j16475494547624_1_alg».proof.Proof.Gen.KernelIdeal.Launch
import proofs.«132911_j16475494547624_1_alg».proof.Proof.Gen.ReferenceIdeal.Read
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem

open Cert.ReferenceIdeal.Read
variable (W : Valuation τ sig (Elt Ideal))
variable (a0 : FVec Ideal S100000x128 .f32) (a1 : (⟨S2x1600000, .i32⟩ : BufTy).Contents (Elt Ideal)) (a2 : FVec Ideal S128x64 .f32)
  (a3 : FVec Ideal S64 .f32) (a4 : FVec Ideal S64x64 .f32) (a5 : FVec Ideal S64 .f32) (a6 : FVec Ideal S128x64 .f32)
  (a7 : FVec Ideal S64 .f32) (a8 : FVec Ideal S64x2 .f32) (a9 : FVec Ideal S2 .f32)

/-! The third stretch of host operations (the second layer's aggregation and bias, its rows gathered
    at both endpoints of every edge and concatenated, and the two bias vectors reshaped to one-row
    matrices) computes the reference's stage of the same number, given that the buffers the stretch
    reads hold the reference's earlier stages; the two reshaped biases are the arguments' reshapes.
    Both sides are read as the same composition of operations over the contents of the buffers the
    stretch reads, which stay opaque. -/

/-- A concatenation of two operands, with the operands as arguments of their own (inside the list of
    shaped operands a rewrite does not reach them). -/
private def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

private theorem concatenate_two {α : Type} (t : Shape) (a : Fin t.rank) (s1 s2 : Shape) (x : s1.Idx → α) (y : s2.Idx → α)
    (h : Shape.Concatenates [s1, s2] t a) :
    concatenate t a [⟨s1, x⟩, ⟨s2, y⟩] h = cat2 t a s1 s2 h x y := rfl

theorem stretch2_v76 (h45 : W (Proc.devRef .tc main_v45) = val_main_v45 a0 a1 a2 a3 a4) (h1 : W (Proc.devRef .tc main_v1) = val_main_v1 a1)
    (h3v : W (Proc.devRef .tc main_v3) = val_main_v3 a1) (h5 : W (Proc.devRef .tc main_v5) = val_main_v5 a1)
    (h6 : W (Proc.devRef .tc main_v6) = val_main_v6 a1) (h26 : W (Proc.devRef .tc main_v26) = val_main_v26 a1)
    (h5a : W (Proc.devRef .tc main_arg5) = a5) :
    StableHlo.after hostOps2 W (Proc.devRef .tc main_v76) = val_main_v76 a0 a1 a2 a3 a4 a5 := by
  simp (disch := decide) only [StableHlo.after_cons, StableHlo.after_nil,
    StableHlo.nullary_result', StableHlo.unary_result', StableHlo.binary_result', StableHlo.ternary_result', StableHlo.reshape_result',
    StableHlo.nullary_result_ne', StableHlo.unary_result_ne', StableHlo.binary_result_ne', StableHlo.ternary_result_ne',
    StableHlo.reshape_result_ne', concatenate_two]
  unfold val_main_v76 val_main_v75 val_main_v74 val_main_v73 val_main_v72 val_main_v71 val_main_c_13 val_main_v70 val_main_v69
    val_main_c_12 val_main_v68 val_main_v67 val_main_v66 val_main_v65 val_main_v64 val_main_c_11 val_main_v63 val_main_v62
    val_main_c_10 val_main_v61 val_main_v60 val_main_v59 val_main_v58 val_main_v57 val_main_v56 val_main_cst_9 val_main_v55
    val_main_v54 val_main_v53 val_main_v52 val_main_v51 val_main_v50 val_main_v49 val_main_v48 val_main_c_8 val_main_v47
    val_main_v46 val_main_c_7
  rw [← h45, ← h1, ← h3v, ← h5, ← h6, ← h26, ← h5a]
  unfold cat2
  rfl

theorem stretch2_v77 (h7 : W (Proc.devRef .tc main_arg7) = a7) :
    StableHlo.after hostOps2 W (Proc.devRef .tc main_v77) = shapeCast S1x64 a7 shapeCasts_S64_S1x64 := by
  after_results
  rw [h7]
  rfl

theorem stretch2_v78 (h9 : W (Proc.devRef .tc main_arg9) = a9) :
    StableHlo.after hostOps2 W (Proc.devRef .tc main_v78) = shapeCast S1x2 a9 shapeCasts_S2_S1x2 := by
  after_results
  rw [h9]
  rfl

end Cert.KernelIdeal.Val

end
-- ==== Proof.Fold.lean ====
/-
  What the idealized kernel's result array holds, read through @main from the launch to the return.

  @main is seven segments: four stretches of host operations around three tiled dense regions. Stretch by stretch the
  host operations are the reference's own, line by line (the edge list split and joined with the self loops, the degrees
  by a scatter-add of ones, their inverse square roots gathered at both endpoints and multiplied, and for each layer the
  gather of the source rows, the scaling, the scatter-add into the destination rows and the bias), so a buffer after a
  stretch is the reference's stage of the same number of the ARGUMENTS, once the buffers the stretch reads are. The
  regions are where the two programs differ in text: each output array, put together from the blocks its grid points
  wrote back, is the whole product of the rows with the weight matrix (the third: the two-layer classifier of every
  row), which is the reference's `dot_general` stage. Buffers that a stretch does not write and a region does not own
  keep their contents, which is how the edge indices, the normalisation and the later layers' weights reach the
  stretches that read them. Nothing here opens a gather or a scatter: both sides carry the same ones.
-/
import proofs.«132911_j16475494547624_1_alg».proof.Proof.Gen.KernelIdeal.Frame
import proofs.«132911_j16475494547624_1_alg».proof.Proof.Gen.ReferenceIdeal.Read
import proofs.«132911_j16475494547624_1_alg».proof.Proof.Region0
import proofs.«132911_j16475494547624_1_alg».proof.Proof.Region1
import proofs.«132911_j16475494547624_1_alg».proof.Proof.Region2
import proofs.«132911_j16475494547624_1_alg».proof.Proof.DenseRef
import proofs.«132911_j16475494547624_1_alg».proof.Proof.MlpRef
import proofs.«132911_j16475494547624_1_alg».proof.Proof.Keep
import proofs.«132911_j16475494547624_1_alg».proof.Proof.Stretch0
import proofs.«132911_j16475494547624_1_alg».proof.Proof.Stretch1
import proofs.«132911_j16475494547624_1_alg».proof.Proof.Stretch2

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

section Fold
open Cert.ReferenceIdeal.Read
variable (m : (ℓ : Loc nD τ sig) → Buf (Elt Ideal) ℓ) (ρ : Dev nD → PrngReg) (c : Dev nD)

set_option quotPrecheck false
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)

/-- After the first stretch an argument other than the edge list still holds its launch contents. -/
theorem W1_arg (b : Ref sig .tc) (hb : b ∈ [main_arg0, main_arg2, main_arg3, main_arg4, main_arg5, main_arg6, main_arg7, main_arg8, main_arg9]) :
    W1 m ρ c (Proc.devRef .tc b) = m ((c : Thread nD τ).loc b) :=
  keep0 (W0 m ρ c) b hb

/-- A buffer no later stretch writes and no region owns holds at the third region's host stretch what it held after the first stretch. -/
theorem W5_eq_W1 (b : Ref sig .tc) (hb : b ∈ [main_v1, main_v3, main_v5, main_v6, main_v26, main_arg4, main_arg5, main_arg6, main_arg7, main_arg8, main_arg9])
    (h0 : ∀ w, Pipeline.arrRef spec0 w ≠ b) (h1 : ∀ w, Pipeline.arrRef spec1 w ≠ b) :
    W5 m ρ c (Proc.devRef .tc b) = W1 m ρ c (Proc.devRef .tc b) :=
  (W5_of_ne m ρ c b h1).trans ((keep1_1 (W3 m ρ c) b hb).trans ((keep1 (W2 m ρ c) b hb).trans (W2_of_ne m ρ c b h0)))

theorem W4_eq_W1 (b : Ref sig .tc) (hb : b ∈ [main_v1, main_v3, main_v5, main_v6, main_v26, main_arg4, main_arg5, main_arg6, main_arg7, main_arg8, main_arg9])
    (h0 : ∀ w, Pipeline.arrRef spec0 w ≠ b) :
    W4 m ρ c (Proc.devRef .tc b) = W1 m ρ c (Proc.devRef .tc b) :=
  (keep1_1 (W3 m ρ c) b hb).trans ((keep1 (W2 m ρ c) b hb).trans (W2_of_ne m ρ c b h0))

/-- The first dense product's array. -/
theorem W2_v27 : W2 m ρ c (Proc.devRef .tc main_v27) = val_main_v27 (F := Ideal) A0 A2 :=
  (W2_arr m ρ c 2).trans ((region0_array (V1 m ρ) c).trans
    ((congrArg₂ Cert.Dense.rowsTimes (W1_arg m ρ c main_arg0 (by decide)) (W1_arg m ρ c main_arg2 (by decide))).trans (dense0_ref A0 A2)))

/-- The first layer's aggregate plus bias. -/
theorem W3_v43 : W3 m ρ c (Proc.devRef .tc main_v43) = val_main_v43 (F := Ideal) A0 A1 A2 A3 :=
  stretch1_v43 (W2 m ρ c) A0 A1 A2 A3 (W2_v27 m ρ c)
    ((W2_of_ne m ρ c main_v5 (by decide)).trans (stretch0_v5 (W0 m ρ c) A1 rfl))
    ((W2_of_ne m ρ c main_v6 (by decide)).trans (stretch0_v6 (W0 m ρ c) A1 rfl))
    ((W2_of_ne m ρ c main_v26 (by decide)).trans (stretch0_v26 (W0 m ρ c) A1 rfl))
    ((W2_of_ne m ρ c main_arg3 (by decide)).trans (W1_arg m ρ c main_arg3 (by decide)))

/-- Clamped below at zero. -/
theorem W4_v44 : W4 m ρ c (Proc.devRef .tc main_v44) = val_main_v44 (F := Ideal) A0 A1 A2 A3 :=
  stretch1_1_v44 (W3 m ρ c) A0 A1 A2 A3 (W3_v43 m ρ c)

/-- The second dense product's array. -/
theorem W5_v45 : W5 m ρ c (Proc.devRef .tc main_v45) = val_main_v45 (F := Ideal) A0 A1 A2 A3 A4 :=
  (W5_arr m ρ c 2).trans ((region1_array (V4 m ρ) c).trans
    ((congrArg₂ Cert.Dense.rowsTimes (W4_v44 m ρ c)
      ((W4_eq_W1 m ρ c main_arg4 (by decide) (by decide)).trans (W1_arg m ρ c main_arg4 (by decide)))).trans (dense1_ref A0 A1 A2 A3 A4)))

/-- The edge features: both endpoints' second-layer embeddings side by side. -/
theorem W6_v76 : W6 m ρ c (Proc.devRef .tc main_v76) = val_main_v76 (F := Ideal) A0 A1 A2 A3 A4 A5 :=
  stretch2_v76 (W5 m ρ c) A0 A1 A2 A3 A4 A5 (W5_v45 m ρ c)
    ((W5_eq_W1 m ρ c main_v1 (by decide) (by decide) (by decide)).trans (stretch0_v1 (W0 m ρ c) A1 rfl))
    ((W5_eq_W1 m ρ c main_v3 (by decide) (by decide) (by decide)).trans (stretch0_v3 (W0 m ρ c) A1 rfl))
    ((W5_eq_W1 m ρ c main_v5 (by decide) (by decide) (by decide)).trans (stretch0_v5 (W0 m ρ c) A1 rfl))
    ((W5_eq_W1 m ρ c main_v6 (by decide) (by decide) (by decide)).trans (stretch0_v6 (W0 m ρ c) A1 rfl))
    ((W5_eq_W1 m ρ c main_v26 (by decide) (by decide) (by decide)).trans (stretch0_v26 (W0 m ρ c) A1 rfl))
    ((W5_eq_W1 m ρ c main_arg5 (by decide) (by decide) (by decide)).trans (W1_arg m ρ c main_arg5 (by decide)))

theorem W5_arg (b : Ref sig .tc) (hb : b ∈ [main_arg6, main_arg7, main_arg8, main_arg9])
    (h0 : ∀ w, Pipeline.arrRef spec0 w ≠ b) (h1 : ∀ w, Pipeline.arrRef spec1 w ≠ b) :
    W5 m ρ c (Proc.devRef .tc b) = m ((c : Thread nD τ).loc b) :=
  (W5_eq_W1 m ρ c b (by
      simp only [List.mem_cons, List.mem_singleton, List.not_mem_nil, or_false] at hb ⊢
      rcases hb with rfl | rfl | rfl | rfl <;> simp) h0 h1).trans
    (W1_arg m ρ c b (by
      simp only [List.mem_cons, List.mem_singleton, List.not_mem_nil, or_false] at hb ⊢
      rcases hb with rfl | rfl | rfl | rfl <;> simp))

/-- THE RESULT: the edge classifier of the edge features, which is the reference's last stage. -/
theorem W7_v79 : W7 m ρ c (Proc.devRef .tc main_v79) = val_main_v85 (F := Ideal) A0 A1 A2 A3 A4 A5 A6 A7 A8 A9 := by
  refine (W7_arr m ρ c 5).trans ((region2_array (V6 m ρ) c).trans ?_)
  have e76 := W6_v76 m ρ c
  have e6 : W6 m ρ c (Proc.devRef .tc main_arg6) = A6 :=
    (keep2 (W5 m ρ c) main_arg6 (by decide)).trans (W5_arg m ρ c main_arg6 (by decide) (by decide) (by decide))
  have e8 : W6 m ρ c (Proc.devRef .tc main_arg8) = A8 :=
    (keep2 (W5 m ρ c) main_arg8 (by decide)).trans (W5_arg m ρ c main_arg8 (by decide) (by decide) (by decide))
  have e77 : W6 m ρ c (Proc.devRef .tc main_v77) = shapeCast S1x64 A7 shapeCasts_S64_S1x64 := stretch2_v77 (W5 m ρ c) A7 (W5_arg m ρ c main_arg7 (by decide) (by decide) (by decide))
  have e78 : W6 m ρ c (Proc.devRef .tc main_v78) = shapeCast S1x2 A9 shapeCasts_S2_S1x2 := stretch2_v78 (W5 m ρ c) A9 (W5_arg m ρ c main_arg9 (by decide) (by decide) (by decide))
  show Cert.Mlp.mlp (W6 m ρ c (Proc.devRef .tc main_v76)) (W6 m ρ c (Proc.devRef .tc main_arg6)) (W6 m ρ c (Proc.devRef .tc main_v77))
      (W6 m ρ c (Proc.devRef .tc main_arg8)) (W6 m ρ c (Proc.devRef .tc main_v78)) = _
  rw [e76, e6, e8, e77, e78]
  exact mlp_ref A0 A1 A2 A3 A4 A5 A6 A7 A8 A9

end Fold

end Cert.KernelIdeal.Val

end
-- ==== Proof.lean ====
/-
  The certificate of a two-layer graph convolution with an edge classifier, its three dense stages as tiled kernel
  regions, against the plain array program.

  On the extended reals the two programs are one function of the ten arguments. Every host operation of the kernel's
  @main — the edge list with its self loops, the symmetric degree normalisation, and per layer the gather of the source
  rows, their scaling and the scatter-add into the destination rows, the bias, the clamp at zero, the two endpoints'
  rows laid side by side — is the reference's own operation on the same operands, in the same order. The three regions
  stand where the reference has a `dot_general`: a block of rows against the whole weight matrix into a zero
  accumulator, the operands narrowed to bf16 on the way (no change on the extended reals), is that block of the whole
  product; and the fused classifier block — product, one-row bias, clamp at zero, product, one-row bias — is that block
  of the reference's last four operations. The sums have the same terms in the same order, so no law beyond 0 + s = s is
  used and the precondition is never opened.

  The frames of the two kernel programs are the generated ones; the reference's frame is its generated run with the
  result dropped; the idealization rewrote nothing, so `preserves` is trivial; `algebraic` pairs the kernel's run, its
  result read through @main's segments (Proof/KernelRun.lean, Proof/Fold.lean), with the reference's generated run at the
  reference's last stage of the arguments.
-/
import proofs.«132911_j16475494547624_1_alg».proof.Defs
import proofs.«132911_j16475494547624_1_alg».proof.Proof.Gen.Kernel
import proofs.«132911_j16475494547624_1_alg».proof.Proof.Gen.Kernel.Skeleton
import proofs.«132911_j16475494547624_1_alg».proof.Proof.Gen.Kernel.Launch
import proofs.«132911_j16475494547624_1_alg».proof.Proof.Gen.Kernel.Points
import proofs.«132911_j16475494547624_1_alg».proof.Proof.Gen.Kernel.Frame
import proofs.«132911_j16475494547624_1_alg».proof.Proof.Gen.KernelIdeal
import proofs.«132911_j16475494547624_1_alg».proof.Proof.Gen.KernelIdeal.Skeleton
import proofs.«132911_j16475494547624_1_alg».proof.Proof.Gen.KernelIdeal.Launch
import proofs.«132911_j16475494547624_1_alg».proof.Proof.Gen.KernelIdeal.Points
import proofs.«132911_j16475494547624_1_alg».proof.Proof.Gen.KernelIdeal.Frame
import proofs.«132911_j16475494547624_1_alg».proof.Proof.Gen.ReferenceIdeal
import proofs.«132911_j16475494547624_1_alg».proof.Proof.Gen.ReferenceIdeal.Read
import proofs.«132911_j16475494547624_1_alg».proof.Proof.Gen.Pre_finite_inputs
import proofs.«132911_j16475494547624_1_alg».proof.Proof.KernelRun
import proofs.«132911_j16475494547624_1_alg».proof.Proof.Fold
import Idealize.ShloMosaic.Adequacy
import Idealize.ShloMosaic.Init

noncomputable section

/-! ## The claims -/
namespace Cert.Proof

open Idealize.ShloMosaic Idealize.ShloMosaic.TcCoe Idealize.SL.Sem

/-- The kernel program as printed terminates without a fault and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is a line of host operations: its run names the result; dropping that reading leaves the frame. -/
theorem frame_ri : Cert.frame_ReferenceIdeal := fun m ρ _ =>
  (θ_run Cert.ReferenceIdeal.defs _ _).mono (fun _ h c => (h c).2) (Cert.ReferenceIdeal.Value.run (F := Ideal) m ρ)
/-- The idealization rewrote no operation: nothing to state. -/
theorem preserves : Cert.preserves_Kernel_KernelIdeal := trivial

/-- From memories that agree on the ten arguments both programs end with the result at the reference's last stage of
    those arguments: the kernel's because each buffer of its fold is the reference's stage of the same number, the
    reference's by its own run, read at the agreeing arguments. -/
theorem algebraic : Cert.algebraic_KernelIdeal_ReferenceIdeal := by
  intro m ρ m' ρ' _ hagree
  refine ⟨fun c => Cert.ReferenceIdeal.Read.val_main_v85 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Val.W7_v79 m ρ c), (h c).2⟩) (Cert.KernelIdeal.Val.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v85_eq, e0, e1, e2, e3, e4, e5, e6, e7, e8, e9]

/-- The five claims under the generated witnesses of the programs' stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
